-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S256x2 .f32) (main_arg9 : FVec F S2 .f32) (main_v33 : IVec S_ 1) : IVec S_ 1 :=
  let main_v34 : FVec F S256x2 .f32 := Host.absf main_arg8
  let main_cst_12 : FVec F S_ .f32 := constant S_ .f32 0x7F800000#32
  let main_v35 : FVec F S256x2 .f32 := broadcastInDim S256x2 ![] bcast_S_S256x2 main_cst_12
  let main_v36 : IVec S256x2 1 := cmpf .olt main_v34 main_v35
  let main_c_13 : IVec S_ 1 := constantI S_ 1 1#1
  let main_v37 : IVec S_ 1 := (fun x v => Host.reduce IntOp.andi x v reducesTo_S256x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x2 .f32) (main_arg9 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x2 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S600000x256 : Shape := ⟨2, ![600000, 256]⟩
abbrev S1x2 : Shape := ⟨2, ![1, 2]⟩
abbrev S50000x2 : Shape := ⟨2, ![50000, 2]⟩
abbrev S2000x2 : Shape := ⟨2, ![2000, 2]⟩
abbrev S2000 : Shape := ⟨1, ![2000]⟩
abbrev S2000x1 : Shape := ⟨2, ![2000, 1]⟩

abbrev nBuf : Space → Nat
  | .hbm => 53
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S128x256, .bf16⟩
  | .hbm, ⟨15, _⟩ => ⟨S256x256, .bf16⟩
  | .hbm, ⟨16, _⟩ => ⟨S256x256, .bf16⟩
  | .hbm, ⟨17, _⟩ => ⟨S256x2, .bf16⟩
  | .hbm, ⟨18, _⟩ => ⟨S50000x128, .bf16⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .bf16⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S1x256, .f32⟩
  | .hbm, ⟨34, _⟩ => ⟨S1x256, .f32⟩
  | .hbm, ⟨35, _⟩ => ⟨S50000x256, .bf16⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x256, .bf16⟩
  | .hbm, ⟨45, _⟩ => ⟨S600000x256, .f32⟩
  | .hbm, ⟨46, _⟩ => ⟨S_, .f32⟩
  | .hbm, ⟨47, _⟩ => ⟨S50000x256, .f32⟩
  | .hbm, ⟨48, _⟩ => ⟨S600000x1, .i32⟩
  | .hbm, ⟨49, _⟩ => ⟨S50000x256, .f32⟩
  | .hbm, ⟨50, _⟩ => ⟨S1x256, .f32⟩
  | .hbm, ⟨51, _⟩ => ⟨S1x2, .f32⟩
  | .hbm, ⟨52, _⟩ => ⟨S50000x2, .f32⟩
  | .local _ .vmem, ⟨0, _⟩ => ⟨S2000x128, .bf16⟩
  | .local _ .vmem, ⟨1, _⟩ => ⟨S2000x128, .bf16⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .f32⟩
  | .local _ .vmem, ⟨13, _⟩ => ⟨S2000x256, .f32⟩
  | .local _ .vmem, ⟨14, _⟩ => ⟨S256x256, .bf16⟩
  | .local _ .vmem, ⟨15, _⟩ => ⟨S1x256, .f32⟩
  | .local _ .vmem, ⟨16, _⟩ => ⟨S256x2, .bf16⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S2_S1x2 : S2.ShapeCasts S1x2
  shapeCasts_S2000x256_S2000x256 : S2000x256.ShapeCasts S2000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .bf16 = 32 ∨ (Rect.block (s := S50000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2.size a ≤ S256x2.size a
  hwx1_4 : ∀ i : grid1.Coords, EltTy.bits .bf16 = 32 ∨ (Rect.block (s := S256x2) S256x2.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x2.size a ≤ S50000x2.size a
  hwx1_6 : ∀ i : grid1.Coords, EltTy.bits .f32 = 32 ∨ (Rect.block (s := S50000x2) S2000x2.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v8) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S256x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x256 : Shape := ⟨2, ![50000, 256]⟩
abbrev S1x256 : Shape := ⟨2, ![1, 256]⟩
abbrev S600000x256 : Shape := ⟨2, ![600000, 256]⟩
abbrev S50000x2 : Shape := ⟨2, ![50000, 2]⟩
abbrev S1x2 : Shape := ⟨2, ![1, 2]⟩
abbrev S50000 : Shape := ⟨1, ![50000]⟩
abbrev S50000x1 : Shape := ⟨2, ![50000, 1]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x2, .f32⟩
  | .hbm, ⟨9, _⟩ => ⟨S2, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S50000x128, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x256, .f32⟩
  | .hbm, ⟨51, _⟩ => ⟨S_, .f32⟩
  | .hbm, ⟨52, _⟩ => ⟨S50000x256, .f32⟩
  | .hbm, ⟨53, _⟩ => ⟨S600000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x2, .f32⟩
  | .hbm, ⟨64, _⟩ => ⟨S1x2, .f32⟩
  | .hbm, ⟨65, _⟩ => ⟨S50000x2, .f32⟩
  | .hbm, ⟨66, _⟩ => ⟨S50000x2, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x2, .f32⟩
  | .hbm, ⟨74, _⟩ => ⟨S50000x2, .f32⟩
  | .hbm, ⟨75, _⟩ => ⟨S50000x2, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S50000x1, .f32⟩
  | .hbm, ⟨80, _⟩ => ⟨S50000x2, .f32⟩
  | .hbm, ⟨81, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_call0_cst_0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_cst_1 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x2_S50000x2_1_0_0_1_n_n_wf : DotDims.WF S50000x256 S256x2 S50000x2 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The kernel program's run with its result named.

  The program is four segments: host operations, the first region, host operations, the second region. The launch
  theorem for such a chain ends with every unscoped buffer at the contents the segments leave, the last boundary's
  fold. Read at the result buffer this is the second region's output array after its write-backs; read at an argument
  it is the launch contents, no segment writing an argument.
-/
import proofs.«122524_j46909632807735_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the chain theorem's implicit arguments are read off its conclusion, which takes unfolding definitions inside types
set_option backward.isDefEq.respectTransparency.types false in
/-- Every weakly fair execution terminates without a fault; the result buffer ends at the last boundary's contents
    and the arguments as launched. -/
theorem run_result : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowSoftmax.lean ====
/-
  The log-softmax of the rows of a matrix, computed on the vector unit, read at an entry.

  For a row `o` the log-softmax at `c` is `(o_c - M) - log Σ_k exp (o_k - M)`, `M` the row's greatest entry. A kernel
  computes it for every row of a block `[R, d]` at once: the row maxima are a reduction along the second axis from the
  word of minus infinity, the reduced vector `[R]` is laid out as a column `[R, 1]` and copied along the row, the
  exponentials of the differences are summed by a reduction from the zero word, and the logarithms of the sums are laid out
  and copied the same way. At `(q, o)` the result is `lsmRow` of row `q`. A host library that takes the row maximum once more
  against minus infinity computes the same thing: a fold of `max` from `b` is already at least `b`.
-/
import Idealize.ShloMosaic.PureOps.Ideal
import Idealize.ShloMosaic.Lib.ValueIdx
import Idealize.ShloMosaic.Lib.Pipeline.Value
import Mathlib.Data.Finset.Fold
import proofs.«122524_j46909632807735_2_alg».proof.Proof.LibRowForms
import proofs.«122524_j46909632807735_2_alg».proof.Proof.LibColumnForms

noncomputable section

open scoped BigOperators

namespace Cert.RowSoftmax

open Idealize.ShloMosaic Idealize.ShloMosaic.ValueIdx

/-- The log-softmax of a row `o` at `c`: `(o_c - M) - log Σ_k exp (o_k - M)`, `M` the row's greatest entry, taken as
    the fold of `max` from `ninf`. -/
def lsmRow {d : ℕ} (ninf : EReal) (o : Fin d → EReal) (c : Fin d) : EReal :=
  (o c - Finset.univ.fold max ninf o) - Ideal.log (∑ k : Fin d, Ideal.exp (o k - Finset.univ.fold max ninf o))

/-- A fold of `max` from `b` is at least `b`, so taking the maximum with `b` once more changes nothing. -/
theorem max_fold_max_self {ι : Type} (s : Finset ι) (b : EReal) (f : ι → EReal) :
    max b (s.fold max b f) = s.fold max b f :=
  max_eq_right (Finset.le_fold_max b |>.mpr (Or.inl le_rfl))

/-- The row normalisation on a block `[R, d]`: at `(q, o)` the log-softmax of row `q`. -/
theorem block_lsm_apply {R d : ℕ} (pre : FVec Ideal ⟨2, ![R, d]⟩ .f32)
    (hr : (⟨2, ![R, d]⟩ : Shape).Reduces [1] ⟨1, ![R]⟩) (hc : (⟨1, ![R]⟩ : Shape).ShapeCasts ⟨2, ![R, 1]⟩)
    (hb : (⟨2, ![R, 1]⟩ : Shape).Broadcasts ⟨2, ![R, d]⟩) (q : Fin R) (o : Fin d) :
    subf (subf pre (broadcastTo ⟨2, ![R, d]⟩ (shapeCast ⟨2, ![R, 1]⟩
        (multiReduction .maximumf [1] ⟨1, ![R]⟩ pre 0xFF800000#32 hr (.inl rfl) rfl) hc) hb))
      (broadcastTo ⟨2, ![R, d]⟩ (log (shapeCast ⟨2, ![R, 1]⟩
        (multiReduction .add [1] ⟨1, ![R]⟩ (exp (subf pre (broadcastTo ⟨2, ![R, d]⟩ (shapeCast ⟨2, ![R, 1]⟩
          (multiReduction .maximumf [1] ⟨1, ![R]⟩ pre 0xFF800000#32 hr (.inl rfl) rfl) hc) hb))) 0x00000000#32 hr (.inl rfl) rfl) hc)) hb) (ix2 q o)
      = lsmRow (Ideal.ofBits .f32 0xFF800000#32) (fun c => pre (ix2 q c)) o := by
  have hmax : ∀ o' : Fin d, broadcastTo ⟨2, ![R, d]⟩ (shapeCast ⟨2, ![R, 1]⟩
        (multiReduction .maximumf [1] ⟨1, ![R]⟩ pre 0xFF800000#32 hr (.inl rfl) rfl) hc) hb (ix2 q o')
      = Finset.univ.fold max (Ideal.ofBits .f32 0xFF800000#32) (fun c => pre (ix2 q c)) := fun o' => by
    rw [Cert.ColumnForms.broadcastTo_a1_ab_apply, Cert.ColumnForms.shapeCast_a_a1_apply, Cert.RowForms.multiReduction_max_rows]
  rw [subf_apply, subf_apply, hmax, Cert.ColumnForms.broadcastTo_a1_ab_apply]
  unfold lsmRow
  refine congrArg (pre (ix2 q o) - _ - ·) ?_
  show Ideal.log (shapeCast ⟨2, ![R, 1]⟩ _ hc (ix2 q (0 : Fin 1))) = _
  rw [Cert.ColumnForms.shapeCast_a_a1_apply, Cert.RowForms.multiReduction_add_rows]
  refine congrArg Ideal.log (Finset.sum_congr rfl fun c _ => ?_)
  show Ideal.exp (pre (ix2 q c) - _) = _
  rw [hmax]

end Cert.RowSoftmax

end
-- ==== Proof.Spec.lean ====
/-
  The mathematics of one graph-isomorphism layer, row by row, over the extended reals.

  A node's new features depend on its own row `X` and on the row `A` of summed neighbour features only: the two rows are
  added, multiplied into the first weight matrix, shifted by the first bias and clipped below at `z` (the rectifier),
  then multiplied into one column of the second weight matrix and shifted by that column's bias. The first layer
  clips the result again; the last layer instead normalises each row by the logarithm of the sum of its exponentials,
  taken after subtracting the row's greatest entry (the row log-softmax, stated with its block form in its own module).
-/
import Idealize.ShloMosaic.PureOps.Ideal
import Mathlib.Algebra.BigOperators.Group.Finset.Basic
import proofs.«122524_j46909632807735_2_alg».proof.Proof.LibRowSoftmax

noncomputable section

open scoped BigOperators

namespace Cert.Gin

open Idealize.ShloMosaic

export Cert.RowSoftmax (lsmRow max_fold_max_self block_lsm_apply)

/-- Entry of the perceptron's output row before its last activation: with `h = X + A`,
    `Σ_k max (Σ_j h_j · W1_{j k} + B1_k) z · W2_k + b2`, where `W2` is the output entry's column of the second matrix
    and `b2` its bias. -/
def mlpRow {n h : ℕ} (X A : Fin n → EReal) (W1 : Fin n → Fin h → EReal) (B1 : Fin h → EReal) (W2 : Fin h → EReal)
    (b2 z : EReal) : EReal :=
  (∑ k : Fin h, max ((∑ j : Fin n, (X j + A j) * W1 j k) + B1 k) z * W2 k) + b2

end Cert.Gin

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.BlockForms.lean ====
/-
  The perceptron computed on a block of rows by the vector and matrix units, read at one entry.

  The body works on `R` rows at a time: it adds the rows' neighbour sums to the rows, multiplies by the first weight
  matrix into a zero accumulator, adds the first bias (a `[1, h]` row copied down the block), clips at `z`, multiplies by the
  second matrix into a zero accumulator and adds the second bias. At row `q` and column `o` this is `mlpRow` of row `q`
  of the two inputs: a matrix product into zero is the plain sum over the shared axis, a copied bias row is the bias at
  the column, and the changes of float format are the identity on extended reals.
-/
import proofs.«122524_j46909632807735_2_alg».proof.Proof.Spec
import proofs.«122524_j46909632807735_2_alg».proof.Proof.LibPlainMatmul
import Idealize.ShloMosaic.Lib.ValueLayout
import Idealize.ShloMosaic.Lib.Pipeline.Value

noncomputable section

open scoped BigOperators

namespace Cert.Gin

open Idealize.ShloMosaic Idealize.ShloMosaic.ValueIdx Cert.PointConv

/-- The hidden activations of the block at row `q`, unit `c`: the clipped affine image of the summed row. -/
theorem hidden_apply {R n h : ℕ} (wf1) (hlt : FTy.bf16.bits < FTy.f32.bits)
    (x : FVec Ideal ⟨2, ![R, n]⟩ .bf16) (agg : FVec Ideal ⟨2, ![R, n]⟩ .f32) (w1 : FVec Ideal ⟨2, ![n, h]⟩ .bf16)
    (b1 : FVec Ideal ⟨2, ![1, h]⟩ .f32) (hb1 : (⟨2, ![1, h]⟩ : Shape).Broadcasts ⟨2, ![R, h]⟩) (z : Ideal .f32)
    (q : Fin R) (c : Fin h) :
    truncf .bf16 (maximumf (addf (FloatOps.matmul (plainDims R n h wf1) none (truncf .bf16 (addf (extf .f32 x hlt) agg) hlt) w1
        (constant (F := Ideal) ⟨2, ![R, h]⟩ .f32 0x00000000#32)) (broadcastTo ⟨2, ![R, h]⟩ b1 hb1)) (broadcast ⟨2, ![R, h]⟩ z)) hlt (ix2 q c)
      = max ((∑ j : Fin n, (x (ix2 q j) + agg (ix2 q j)) * w1 (ix2 j c)) + b1 (ix2 (0 : Fin 1) c)) z := by
  show max (FloatOps.matmul (plainDims R n h wf1) none (truncf .bf16 (addf (extf .f32 x hlt) agg) hlt) w1
      (constant (F := Ideal) ⟨2, ![R, h]⟩ .f32 0x00000000#32) (ix2 q c) + broadcastTo ⟨2, ![R, h]⟩ b1 hb1 (ix2 q c)) z = _
  rw [plainMatmul_zero_apply, broadcastTo_1b_ab_apply]
  rfl

/-- The block's output before the last activation, at row `q` and column `o`. -/
theorem block_pre_apply {R n h k : ℕ} (wf1) (wf2) (hlt : FTy.bf16.bits < FTy.f32.bits)
    (x : FVec Ideal ⟨2, ![R, n]⟩ .bf16) (agg : FVec Ideal ⟨2, ![R, n]⟩ .f32) (w1 : FVec Ideal ⟨2, ![n, h]⟩ .bf16)
    (w2 : FVec Ideal ⟨2, ![h, k]⟩ .bf16) (b1 : FVec Ideal ⟨2, ![1, h]⟩ .f32) (b2 : FVec Ideal ⟨2, ![1, k]⟩ .f32)
    (hb1 : (⟨2, ![1, h]⟩ : Shape).Broadcasts ⟨2, ![R, h]⟩) (hb2 : (⟨2, ![1, k]⟩ : Shape).Broadcasts ⟨2, ![R, k]⟩)
    (z : Ideal .f32) (q : Fin R) (o : Fin k) :
    addf (FloatOps.matmul (plainDims R h k wf2) none
        (truncf .bf16 (maximumf (addf (FloatOps.matmul (plainDims R n h wf1) none (truncf .bf16 (addf (extf .f32 x hlt) agg) hlt) w1
          (constant (F := Ideal) ⟨2, ![R, h]⟩ .f32 0x00000000#32)) (broadcastTo ⟨2, ![R, h]⟩ b1 hb1)) (broadcast ⟨2, ![R, h]⟩ z)) hlt)
        w2 (constant (F := Ideal) ⟨2, ![R, k]⟩ .f32 0x00000000#32)) (broadcastTo ⟨2, ![R, k]⟩ b2 hb2) (ix2 q o)
      = mlpRow (fun j => x (ix2 q j)) (fun j => agg (ix2 q j)) (fun j c => w1 (ix2 j c)) (fun c => b1 (ix2 (0 : Fin 1) c))
          (fun c => w2 (ix2 c o)) (b2 (ix2 (0 : Fin 1) o)) z := by
  rw [addf_apply, plainMatmul_zero_apply, broadcastTo_1b_ab_apply]
  unfold mlpRow
  refine congrArg (· + b2 (ix2 (0 : Fin 1) o)) (Finset.sum_congr rfl fun c _ => ?_)
  rw [hidden_apply]

end Cert.Gin

end
-- ==== Proof.KernelBody.lean ====
/-
  What the two kernel bodies store, read at one entry of the block.

  The first body stores, at row `p` and column `q` of its block, the rectified perceptron output of row `p` of its two
  input blocks; the second stores the log-softmax over the two output columns of the unrectified perceptron output.
  Both are the block forms instantiated at the printed shapes; the identity reshapes the body applies to each loaded
  vector drop out first.
-/
import proofs.«122524_j46909632807735_2_alg».proof.Proof.Gen.KernelIdeal.Skeleton
import proofs.«122524_j46909632807735_2_alg».proof.Proof.BlockForms

noncomputable section

open scoped BigOperators

namespace Cert.KernelIdeal.Hand

open Idealize.ShloMosaic Idealize.ShloMosaic.ValueIdx Cert.KernelIdeal Cert.KernelIdeal.Gen Cert.Gin

/-- The floor of the rectifier: the zero word. -/
abbrev zf : Ideal .f32 := Ideal.ofBits .f32 0x00000000#32
/-- The start of a row maximum: the word of minus infinity. -/
abbrev ninf : Ideal .f32 := Ideal.ofBits .f32 0xFF800000#32

/-- First layer: the stored value at `(p, q)` is `max (mlpRow row p …) 0`. -/
theorem pay0_apply (x : FVec Ideal S2000x128 .bf16) (agg : FVec Ideal S2000x128 .f32) (w1 : FVec Ideal S128x256 .bf16)
    (w2 : FVec Ideal S256x256 .bf16) (b1 b2 : FVec Ideal S1x256 .f32) (p : Fin 2000) (q : Fin 256) :
    k0_pay1 (F := Ideal) x agg w1 w2 b1 b2 (ix2 p q)
      = max (mlpRow (fun j : Fin 128 => x (ix2 p j)) (fun j : Fin 128 => agg (ix2 p j)) (fun (j : Fin 128) (k : Fin 256) => w1 (ix2 j k))
          (fun k : Fin 256 => b1 (ix2 (0 : Fin 1) k)) (fun k : Fin 256 => w2 (ix2 k q)) (b2 (ix2 (0 : Fin 1) q)) zf) zf := by
  unfold k0_pay1
  simp only [shapeCast_self]
  exact congrArg (fun v => max v zf)
    (block_pre_apply _ _ bitsLt_bf16_f32 x agg w1 w2 b1 b2 broadcasts_S1x256_S2000x256 broadcasts_S1x256_S2000x256 zf p q)

/-- Last layer: the stored value at `(p, q)` is the log-softmax, over the two columns, of row `p`'s perceptron output. -/
theorem pay1_apply (x : FVec Ideal S2000x256 .bf16) (agg : FVec Ideal S2000x256 .f32) (w1 : FVec Ideal S256x256 .bf16)
    (w2 : FVec Ideal S256x2 .bf16) (b1 : FVec Ideal S1x256 .f32) (b2 : FVec Ideal S1x2 .f32) (p : Fin 2000) (q : Fin 2) :
    k1_pay1 (F := Ideal) x agg w1 w2 b1 b2 (ix2 p q)
      = lsmRow ninf (fun c : Fin 2 => mlpRow (fun j : Fin 256 => x (ix2 p j)) (fun j : Fin 256 => agg (ix2 p j))
          (fun (j : Fin 256) (k : Fin 256) => w1 (ix2 j k)) (fun k : Fin 256 => b1 (ix2 (0 : Fin 1) k)) (fun k : Fin 256 => w2 (ix2 k c))
          (b2 (ix2 (0 : Fin 1) c)) zf) q := by
  unfold k1_pay1
  simp only [shapeCast_self]
  refine (block_lsm_apply _ reduces_S2000x2_S2000 shapeCasts_S2000_S2000x1 broadcasts_S2000x1_S2000x2 p q).trans ?_
  refine congrArg (fun f => lsmRow ninf f q) (funext fun c => ?_)
  exact block_pre_apply _ _ bitsLt_bf16_f32 x agg w1 w2 b1 b2 broadcasts_S1x256_S2000x256 broadcasts_S1x2_S2000x2 zf p c

end Cert.KernelIdeal.Hand

end
-- ==== Proof.Arrays0.lean ====
/-
  The first layer's array after its region: every block is a block of one whole-array function.

  Grid point `t` of the first region works on rows `2000 t … 2000 t + 1999`: its two row-blocked inputs are those rows of
  the node features and of the neighbour sums, its four other inputs are whole arrays (the weights and the biases laid
  out as one row), and what it writes back is those rows of the rectified perceptron output. So the written blocks
  are the blocks of ONE function of the six arrays as the region finds them, the 25 blocks cover the 50000 rows, and the
  output array ends holding that function.
-/
import proofs.«122524_j46909632807735_2_alg».proof.Proof.Gen.KernelIdeal.Frame
import proofs.«122524_j46909632807735_2_alg».proof.Proof.KernelBody
import Idealize.ShloMosaic.Lib.Pipeline.Value

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The array row that row `p` of grid point `t`'s block is: `2000 t + p`. -/
def rowOf (t : Fin cfg0.N) (p : Fin 2000) : Fin 50000 :=
  ⟨2000 * t.val + p.val, by have hN : cfg0.N = 25 := N_0; have h := t.isLt; have := p.isLt; omega⟩

/-- The block indices of the seven windows, decided over the grid: the row-blocked ones move with the point, the others
    stay at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, read at an entry, is the array read at the entry's place -/

theorem blk0_0 (c : Dev nD) (t : Fin cfg0.N) (p : Fin 2000) (j : Fin 128) :
    (iblk0 V c 0 t : FVec Ideal S2000x128 .bf16) (ix2 p j) = (V c main_v8 : FVec Ideal S50000x128 .bf16) (ix2 (rowOf t p) j) := by
  unfold iblk0
  rw [View.read_apply]
  show (V c main_v8 : FVec Ideal S50000x128 .bf16) (((cfg0.win 0).blk t).view.emb (ix2 p j)) = _
  refine congrArg (V c main_v8 : FVec Ideal S50000x128 .bf16) (funext fun a => Fin.ext ?_)
  obtain ⟨e0, e1, -⟩ := idx0 t
  match a with
  | ⟨0, _⟩ => show win0_0.index t (0 : Fin 2) * 2000 + 1 * p.val = 2000 * t.val + p.val; rw [e0]; omega
  | ⟨1, _⟩ => show win0_0.index t (1 : Fin 2) * 128 + 1 * j.val = j.val; rw [e1]; omega

theorem blk0_1 (c : Dev nD) (t : Fin cfg0.N) (p : Fin 2000) (j : Fin 128) :
    (iblk0 V c 1 t : FVec Ideal S2000x128 .f32) (ix2 p j) = (V c main_v19 : FVec Ideal S50000x128 .f32) (ix2 (rowOf t p) j) := by
  unfold iblk0
  rw [View.read_apply]
  show (V c main_v19 : FVec Ideal S50000x128 .f32) (((cfg0.win 1).blk t).view.emb (ix2 p j)) = _
  refine congrArg (V c main_v19 : FVec Ideal S50000x128 .f32) (funext fun a => Fin.ext ?_)
  obtain ⟨-, -, e0, e1, -⟩ := idx0 t
  match a with
  | ⟨0, _⟩ => show win0_1.index t (0 : Fin 2) * 2000 + 1 * p.val = 2000 * t.val + p.val; rw [e0]; omega
  | ⟨1, _⟩ => show win0_1.index t (1 : Fin 2) * 128 + 1 * j.val = j.val; rw [e1]; omega

theorem blk0_2 (c : Dev nD) (t : Fin cfg0.N) (j : Fin 128) (k : Fin 256) :
    (iblk0 V c 2 t : FVec Ideal S128x256 .bf16) (ix2 j k) = (V c main_v4 : FVec Ideal S128x256 .bf16) (ix2 j k) := by
  unfold iblk0
  rw [View.read_apply]
  show (V c main_v4 : FVec Ideal S128x256 .bf16) (((cfg0.win 2).blk t).view.emb (ix2 j k)) = _
  refine congrArg (V c main_v4 : FVec Ideal S128x256 .bf16) (funext fun a => Fin.ext ?_)
  obtain ⟨-, -, -, -, e0, e1, -⟩ := idx0 t
  match a with
  | ⟨0, _⟩ => show win0_2.index t (0 : Fin 2) * 128 + 1 * j.val = j.val; rw [e0]; omega
  | ⟨1, _⟩ => show win0_2.index t (1 : Fin 2) * 256 + 1 * k.val = k.val; rw [e1]; omega

theorem blk0_3 (c : Dev nD) (t : Fin cfg0.N) (u : Fin 1) (k : Fin 256) :
    (iblk0 V c 3 t : FVec Ideal S1x256 .f32) (ix2 u k) = (V c main_v20 : FVec Ideal S1x256 .f32) (ix2 u k) := by
  unfold iblk0
  rw [View.read_apply]
  show (V c main_v20 : FVec Ideal S1x256 .f32) (((cfg0.win 3).blk t).view.emb (ix2 u k)) = _
  refine congrArg (V c main_v20 : FVec Ideal S1x256 .f32) (funext fun a => Fin.ext ?_)
  obtain ⟨-, -, -, -, -, -, e0, e1, -⟩ := idx0 t
  match a with
  | ⟨0, _⟩ => show win0_3.index t (0 : Fin 2) * 1 + 1 * u.val = u.val; rw [e0]; omega
  | ⟨1, _⟩ => show win0_3.index t (1 : Fin 2) * 256 + 1 * k.val = k.val; rw [e1]; omega

theorem blk0_4 (c : Dev nD) (t : Fin cfg0.N) (j : Fin 256) (k : Fin 256) :
    (iblk0 V c 4 t : FVec Ideal S256x256 .bf16) (ix2 j k) = (V c main_v5 : FVec Ideal S256x256 .bf16) (ix2 j k) := by
  unfold iblk0
  rw [View.read_apply]
  show (V c main_v5 : FVec Ideal S256x256 .bf16) (((cfg0.win 4).blk t).view.emb (ix2 j k)) = _
  refine congrArg (V c main_v5 : FVec Ideal S256x256 .bf16) (funext fun a => Fin.ext ?_)
  obtain ⟨-, -, -, -, -, -, -, -, e0, e1, -⟩ := idx0 t
  match a with
  | ⟨0, _⟩ => show win0_4.index t (0 : Fin 2) * 256 + 1 * j.val = j.val; rw [e0]; omega
  | ⟨1, _⟩ => show win0_4.index t (1 : Fin 2) * 256 + 1 * k.val = k.val; rw [e1]; omega

theorem blk0_5 (c : Dev nD) (t : Fin cfg0.N) (u : Fin 1) (k : Fin 256) :
    (iblk0 V c 5 t : FVec Ideal S1x256 .f32) (ix2 u k) = (V c main_v21 : FVec Ideal S1x256 .f32) (ix2 u k) := by
  unfold iblk0
  rw [View.read_apply]
  show (V c main_v21 : FVec Ideal S1x256 .f32) (((cfg0.win 5).blk t).view.emb (ix2 u k)) = _
  refine congrArg (V c main_v21 : FVec Ideal S1x256 .f32) (funext fun a => Fin.ext ?_)
  obtain ⟨-, -, -, -, -, -, -, -, -, -, e0, e1, -⟩ := idx0 t
  match a with
  | ⟨0, _⟩ => show win0_5.index t (0 : Fin 2) * 1 + 1 * u.val = u.val; rw [e0]; omega
  | ⟨1, _⟩ => show win0_5.index t (1 : Fin 2) * 256 + 1 * k.val = k.val; rw [e1]; omega

/-- Entry `(p, q)` of the output block of point `t` sits at `(2000 t + p, q)` of the output array. -/
theorem emb0_6 (t : Fin cfg0.N) (p : Fin 2000) (q : Fin 256) :
    ((cfg0.win 6).blk t).view.emb (ix2 p q) = (ix2 (rowOf t p) q : S50000x256.Idx) := by
  funext a
  apply Fin.ext
  obtain ⟨-, -, -, -, -, -, -, -, -, -, -, -, e0, e1⟩ := idx0 t
  match a with
  | ⟨0, _⟩ => show win0_6.index t (0 : Fin 2) * 2000 + 1 * p.val = 2000 * t.val + p.val; rw [e0]; omega
  | ⟨1, _⟩ => show win0_6.index t (1 : Fin 2) * 256 + 1 * q.val = q.val; rw [e1]; omega

/-! ## The whole-array function -/

/-- The first layer at node `r`, feature `q`: the rectified perceptron output of the node's row and its neighbour sum,
    the biases being read off their one-row layout. -/
def layer1At (X : FVec Ideal S50000x128 .bf16) (A : FVec Ideal S50000x128 .f32) (W1 : FVec Ideal S128x256 .bf16)
    (B1 : FVec Ideal S1x256 .f32) (W2 : FVec Ideal S256x256 .bf16) (B2 : FVec Ideal S1x256 .f32) (r : Fin 50000) (q : Fin 256) : EReal :=
  max (mlpRow (fun j : Fin 128 => X (ix2 r j)) (fun j : Fin 128 => A (ix2 r j)) (fun (j : Fin 128) (k : Fin 256) => W1 (ix2 j k))
    (fun k : Fin 256 => B1 (ix2 (0 : Fin 1) k)) (fun k : Fin 256 => W2 (ix2 k q)) (B2 (ix2 (0 : Fin 1) q)) zf) zf

/-- … as an array. -/
def layer1 (X : FVec Ideal S50000x128 .bf16) (A : FVec Ideal S50000x128 .f32) (W1 : FVec Ideal S128x256 .bf16)
    (B1 : FVec Ideal S1x256 .f32) (W2 : FVec Ideal S256x256 .bf16) (B2 : FVec Ideal S1x256 .f32) : FVec Ideal S50000x256 .bf16 :=
  fun i => layer1At X A W1 B1 W2 B2 (⟨(i 0).val, (i 0).isLt⟩ : Fin 50000) (⟨(i 1).val, (i 1).isLt⟩ : Fin 256)

theorem layer1_ix2 (X : FVec Ideal S50000x128 .bf16) (A : FVec Ideal S50000x128 .f32) (W1 : FVec Ideal S128x256 .bf16)
    (B1 : FVec Ideal S1x256 .f32) (W2 : FVec Ideal S256x256 .bf16) (B2 : FVec Ideal S1x256 .f32) (r : Fin 50000) (q : Fin 256) :
    layer1 X A W1 B1 W2 B2 (ix2 r q) = layer1At X A W1 B1 W2 B2 r q := rfl

/-! ## Blocks to array -/

/-- What point `t` writes back is block `t` of `layer1` of the arrays as the region finds them. -/
theorem flushed0_eq (c : Dev nD) (t : Fin cfg0.N) :
    (dat0 V c).flushed 6 t = ((cfg0.win 6).blk t).view.read (Elt Ideal)
      (layer1 (V c main_v8) (V c main_v19) (V c main_v4) (V c main_v20) (V c main_v5) (V c main_v21)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x256) hz, View.ld_unit_zero (S := S256x256) hz,
    View.ld_unit_zero (S := S1x256) hz]
  funext y
  obtain ⟨p, q, rfl⟩ : ∃ (p : Fin 2000) (q : Fin 256), y = (ix2 p q : S2000x256.Idx) := ⟨y 0, y 1, eq_ix2 (n0 := 2000) (n1 := 256) y⟩
  show k0_pay1 (iblk0 V c 0 t) (iblk0 V c 1 t) (iblk0 V c 2 t) (iblk0 V c 4 t) (iblk0 V c 3 t) (iblk0 V c 5 t) (ix2 p q)
    = layer1 (V c main_v8) (V c main_v19) (V c main_v4) (V c main_v20) (V c main_v5) (V c main_v21) (((cfg0.win 6).blk t).view.emb (ix2 p q))
  rw [emb0_6, layer1_ix2]
  refine (pay0_apply (iblk0 V c 0 t) (iblk0 V c 1 t) (iblk0 V c 2 t) (iblk0 V c 4 t) (iblk0 V c 3 t) (iblk0 V c 5 t) p q).trans ?_
  unfold layer1At
  simp only [blk0_0 V c t, blk0_1 V c t, blk0_2 V c t, blk0_3 V c t, blk0_4 V c t, blk0_5 V c t]

/-- An index of the output array is in point `t`'s block iff each coordinate is in the block's range. -/
theorem mem_blk0_6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v22).slice (win0_6.rect t)).set ↔ _
  rw [View.set_slice_whole, Rect.mem_set_unit]
  exact Iff.rfl

/-- Row `r` is in the block of point `r / 2000`. -/
theorem cover0_out (i : S50000x256.Idx) : ∃ t : Fin cfg0.N, (cfg0.win 6).flush t = true ∧ i ∈ ((cfg0.win 6).blk t).view.set := by
  have hN : cfg0.N = 25 := N_0
  have h0 : (i 0).val < 50000 := (i 0).isLt
  have h1 : (i 1).val < 256 := (i 1).isLt
  obtain ⟨t, ht⟩ : ∃ t : Fin cfg0.N, t.val = (i 0).val / 2000 := ⟨⟨(i 0).val / 2000, by omega⟩, rfl⟩
  obtain ⟨-, -, -, -, -, -, -, -, -, -, -, -, e0, e1⟩ := idx0 t
  refine ⟨t, flush0_6 t, ?_⟩
  rw [mem_blk0_6]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 256 ≤ (i 1).val ∧ (i 1).val < win0_6.index t (1 : Fin 2) * 256 + 256
    rw [e1]; omega

/-- The output array after the region. -/
theorem final0 (c : Dev nD) : (dat0 V c).arrAt 6 cfg0.N
    = layer1 (V c main_v8) (V c main_v19) (V c main_v4) (V c main_v20) (V c main_v5) (V c main_v21) :=
  (dat0 V c).arrAt_eq_of_cover 6 _ (fun t _ => flushed0_eq V c t) cover0_out

end Cert.KernelIdeal.Hand

end
-- ==== Proof.Arrays1.lean ====
/-
  The last layer's array after its region: every block is a block of one whole-array function.

  Grid point `t` of the second region works on rows `2000 t … 2000 t + 1999` of the first layer's output and of its
  neighbour sums, with the second pair of weights and biases whole, and writes back those rows of the log-softmax of the
  perceptron output. The 25 written blocks are blocks of ONE function of the six arrays as the region finds them and cover
  the 50000 rows, so the output array ends holding that function.
-/
import proofs.«122524_j46909632807735_2_alg».proof.Proof.Gen.KernelIdeal.Frame
import proofs.«122524_j46909632807735_2_alg».proof.Proof.KernelBody
import Idealize.ShloMosaic.Lib.Pipeline.Value

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gin

variable (V : (c : Dev nD) → (b : Ref sig .tc) → Buf (Elt Ideal) ((c : Thread nD τ).loc b))

theorem hz1 : (![0, 0] : Fin 2 → Nat) = fun _ => 0 := funext fun a => by fin_cases a <;> rfl

/-- The array row that row `p` of grid point `t`'s block is: `2000 t + p`. -/
def rowOf1 (t : Fin cfg1.N) (p : Fin 2000) : Fin 50000 :=
  ⟨2000 * t.val + p.val, by have hN : cfg1.N = 25 := N_1; have h := t.isLt; have := p.isLt; omega⟩

/-- The block indices of the seven windows, decided over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each input block, read at an entry, is the array read at the entry's place -/

theorem blk1_0 (c : Dev nD) (t : Fin cfg1.N) (p : Fin 2000) (j : Fin 256) :
    (iblk1 V c 0 t : FVec Ideal S2000x256 .bf16) (ix2 p j) = (V c main_v22 : FVec Ideal S50000x256 .bf16) (ix2 (rowOf1 t p) j) := by
  unfold iblk1
  rw [View.read_apply]
  show (V c main_v22 : FVec Ideal S50000x256 .bf16) (((cfg1.win 0).blk t).view.emb (ix2 p j)) = _
  refine congrArg (V c main_v22 : FVec Ideal S50000x256 .bf16) (funext fun a => Fin.ext ?_)
  obtain ⟨e0, e1, -⟩ := idx1 t
  match a with
  | ⟨0, _⟩ => show win1_0.index t (0 : Fin 2) * 2000 + 1 * p.val = 2000 * t.val + p.val; rw [e0]; omega
  | ⟨1, _⟩ => show win1_0.index t (1 : Fin 2) * 256 + 1 * j.val = j.val; rw [e1]; omega

theorem blk1_1 (c : Dev nD) (t : Fin cfg1.N) (p : Fin 2000) (j : Fin 256) :
    (iblk1 V c 1 t : FVec Ideal S2000x256 .f32) (ix2 p j) = (V c main_v33 : FVec Ideal S50000x256 .f32) (ix2 (rowOf1 t p) j) := by
  unfold iblk1
  rw [View.read_apply]
  show (V c main_v33 : FVec Ideal S50000x256 .f32) (((cfg1.win 1).blk t).view.emb (ix2 p j)) = _
  refine congrArg (V c main_v33 : FVec Ideal S50000x256 .f32) (funext fun a => Fin.ext ?_)
  obtain ⟨-, -, e0, e1, -⟩ := idx1 t
  match a with
  | ⟨0, _⟩ => show win1_1.index t (0 : Fin 2) * 2000 + 1 * p.val = 2000 * t.val + p.val; rw [e0]; omega
  | ⟨1, _⟩ => show win1_1.index t (1 : Fin 2) * 256 + 1 * j.val = j.val; rw [e1]; omega

theorem blk1_2 (c : Dev nD) (t : Fin cfg1.N) (j : Fin 256) (k : Fin 256) :
    (iblk1 V c 2 t : FVec Ideal S256x256 .bf16) (ix2 j k) = (V c main_v6 : FVec Ideal S256x256 .bf16) (ix2 j k) := by
  unfold iblk1
  rw [View.read_apply]
  show (V c main_v6 : FVec Ideal S256x256 .bf16) (((cfg1.win 2).blk t).view.emb (ix2 j k)) = _
  refine congrArg (V c main_v6 : FVec Ideal S256x256 .bf16) (funext fun a => Fin.ext ?_)
  obtain ⟨-, -, -, -, e0, e1, -⟩ := idx1 t
  match a with
  | ⟨0, _⟩ => show win1_2.index t (0 : Fin 2) * 256 + 1 * j.val = j.val; rw [e0]; omega
  | ⟨1, _⟩ => show win1_2.index t (1 : Fin 2) * 256 + 1 * k.val = k.val; rw [e1]; omega

theorem blk1_3 (c : Dev nD) (t : Fin cfg1.N) (u : Fin 1) (k : Fin 256) :
    (iblk1 V c 3 t : FVec Ideal S1x256 .f32) (ix2 u k) = (V c main_v34 : FVec Ideal S1x256 .f32) (ix2 u k) := by
  unfold iblk1
  rw [View.read_apply]
  show (V c main_v34 : FVec Ideal S1x256 .f32) (((cfg1.win 3).blk t).view.emb (ix2 u k)) = _
  refine congrArg (V c main_v34 : FVec Ideal S1x256 .f32) (funext fun a => Fin.ext ?_)
  obtain ⟨-, -, -, -, -, -, e0, e1, -⟩ := idx1 t
  match a with
  | ⟨0, _⟩ => show win1_3.index t (0 : Fin 2) * 1 + 1 * u.val = u.val; rw [e0]; omega
  | ⟨1, _⟩ => show win1_3.index t (1 : Fin 2) * 256 + 1 * k.val = k.val; rw [e1]; omega

theorem blk1_4 (c : Dev nD) (t : Fin cfg1.N) (j : Fin 256) (k : Fin 2) :
    (iblk1 V c 4 t : FVec Ideal S256x2 .bf16) (ix2 j k) = (V c main_v7 : FVec Ideal S256x2 .bf16) (ix2 j k) := by
  unfold iblk1
  rw [View.read_apply]
  show (V c main_v7 : FVec Ideal S256x2 .bf16) (((cfg1.win 4).blk t).view.emb (ix2 j k)) = _
  refine congrArg (V c main_v7 : FVec Ideal S256x2 .bf16) (funext fun a => Fin.ext ?_)
  obtain ⟨-, -, -, -, -, -, -, -, e0, e1, -⟩ := idx1 t
  match a with
  | ⟨0, _⟩ => show win1_4.index t (0 : Fin 2) * 256 + 1 * j.val = j.val; rw [e0]; omega
  | ⟨1, _⟩ => show win1_4.index t (1 : Fin 2) * 2 + 1 * k.val = k.val; rw [e1]; omega

theorem blk1_5 (c : Dev nD) (t : Fin cfg1.N) (u : Fin 1) (k : Fin 2) :
    (iblk1 V c 5 t : FVec Ideal S1x2 .f32) (ix2 u k) = (V c main_v35 : FVec Ideal S1x2 .f32) (ix2 u k) := by
  unfold iblk1
  rw [View.read_apply]
  show (V c main_v35 : FVec Ideal S1x2 .f32) (((cfg1.win 5).blk t).view.emb (ix2 u k)) = _
  refine congrArg (V c main_v35 : FVec Ideal S1x2 .f32) (funext fun a => Fin.ext ?_)
  obtain ⟨-, -, -, -, -, -, -, -, -, -, e0, e1, -⟩ := idx1 t
  match a with
  | ⟨0, _⟩ => show win1_5.index t (0 : Fin 2) * 1 + 1 * u.val = u.val; rw [e0]; omega
  | ⟨1, _⟩ => show win1_5.index t (1 : Fin 2) * 2 + 1 * k.val = k.val; rw [e1]; omega

/-- Entry `(p, q)` of the output block of point `t` sits at `(2000 t + p, q)` of the output array. -/
theorem emb1_6 (t : Fin cfg1.N) (p : Fin 2000) (q : Fin 2) :
    ((cfg1.win 6).blk t).view.emb (ix2 p q) = (ix2 (rowOf1 t p) q : S50000x2.Idx) := by
  funext a
  apply Fin.ext
  obtain ⟨-, -, -, -, -, -, -, -, -, -, -, -, e0, e1⟩ := idx1 t
  match a with
  | ⟨0, _⟩ => show win1_6.index t (0 : Fin 2) * 2000 + 1 * p.val = 2000 * t.val + p.val; rw [e0]; omega
  | ⟨1, _⟩ => show win1_6.index t (1 : Fin 2) * 2 + 1 * q.val = q.val; rw [e1]; omega

/-! ## The whole-array function -/

/-- The last layer at node `r`, class `q`: the log-softmax over the two classes of the node's perceptron output. -/
def layer2At (X : FVec Ideal S50000x256 .bf16) (A : FVec Ideal S50000x256 .f32) (W1 : FVec Ideal S256x256 .bf16)
    (B1 : FVec Ideal S1x256 .f32) (W2 : FVec Ideal S256x2 .bf16) (B2 : FVec Ideal S1x2 .f32) (r : Fin 50000) (q : Fin 2) : EReal :=
  lsmRow ninf (fun c : Fin 2 => mlpRow (fun j : Fin 256 => X (ix2 r j)) (fun j : Fin 256 => A (ix2 r j))
    (fun (j : Fin 256) (k : Fin 256) => W1 (ix2 j k)) (fun k : Fin 256 => B1 (ix2 (0 : Fin 1) k)) (fun k : Fin 256 => W2 (ix2 k c))
    (B2 (ix2 (0 : Fin 1) c)) zf) q

/-- … as an array. -/
def layer2 (X : FVec Ideal S50000x256 .bf16) (A : FVec Ideal S50000x256 .f32) (W1 : FVec Ideal S256x256 .bf16)
    (B1 : FVec Ideal S1x256 .f32) (W2 : FVec Ideal S256x2 .bf16) (B2 : FVec Ideal S1x2 .f32) : FVec Ideal S50000x2 .f32 :=
  fun i => layer2At X A W1 B1 W2 B2 (⟨(i 0).val, (i 0).isLt⟩ : Fin 50000) (⟨(i 1).val, (i 1).isLt⟩ : Fin 2)

theorem layer2_ix2 (X : FVec Ideal S50000x256 .bf16) (A : FVec Ideal S50000x256 .f32) (W1 : FVec Ideal S256x256 .bf16)
    (B1 : FVec Ideal S1x256 .f32) (W2 : FVec Ideal S256x2 .bf16) (B2 : FVec Ideal S1x2 .f32) (r : Fin 50000) (q : Fin 2) :
    layer2 X A W1 B1 W2 B2 (ix2 r q) = layer2At X A W1 B1 W2 B2 r q := rfl

/-! ## Blocks to array -/

/-- What point `t` writes back is block `t` of `layer2` of the arrays as the region finds them. -/
theorem flushed1_eq (c : Dev nD) (t : Fin cfg1.N) :
    (dat1 V c).flushed 6 t = ((cfg1.win 6).blk t).view.read (Elt Ideal)
      (layer2 (V c main_v22) (V c main_v33) (V c main_v6) (V c main_v34) (V c main_v7) (V c main_v35)) := by
  show (cfg1.win 6).cut (grid1.coords t) ((dat1 V c).after 6 t) = _
  rw [after1_6]
  unfold out1_6
  rw [View.canon_unit_zero hz1]
  simp only [View.ld_unit_zero (S := S2000x256) hz1, View.ld_unit_zero (S := S256x256) hz1, View.ld_unit_zero (S := S256x2) hz1,
    View.ld_unit_zero (S := S1x256) hz1, View.ld_unit_zero (S := S1x2) hz1]
  funext y
  obtain ⟨p, q, rfl⟩ : ∃ (p : Fin 2000) (q : Fin 2), y = (ix2 p q : S2000x2.Idx) := ⟨y 0, y 1, eq_ix2 (n0 := 2000) (n1 := 2) y⟩
  show k1_pay1 (iblk1 V c 0 t) (iblk1 V c 1 t) (iblk1 V c 2 t) (iblk1 V c 4 t) (iblk1 V c 3 t) (iblk1 V c 5 t) (ix2 p q)
    = layer2 (V c main_v22) (V c main_v33) (V c main_v6) (V c main_v34) (V c main_v7) (V c main_v35) (((cfg1.win 6).blk t).view.emb (ix2 p q))
  rw [emb1_6, layer2_ix2]
  refine (pay1_apply (iblk1 V c 0 t) (iblk1 V c 1 t) (iblk1 V c 2 t) (iblk1 V c 4 t) (iblk1 V c 3 t) (iblk1 V c 5 t) p q).trans ?_
  unfold layer2At
  simp only [blk1_0 V c t, blk1_1 V c t, blk1_2 V c t, blk1_3 V c t, blk1_4 V c t, blk1_5 V c t]

/-- An index of the output array is in point `t`'s block iff each coordinate is in the block's range. -/
theorem mem_blk1_6 (t : Fin cfg1.N) (i : S50000x2.Idx) :
    i ∈ ((cfg1.win 6).blk t).view.set ↔ ∀ a : Fin 2, win1_6.index t a * S2000x2.size a ≤ (i a).val ∧ (i a).val < win1_6.index t a * S2000x2.size a + S2000x2.size a := by
  show i ∈ ((View.whole main_v36).slice (win1_6.rect t)).set ↔ _
  rw [View.set_slice_whole, Rect.mem_set_unit]
  exact Iff.rfl

/-- Row `r` is in the block of point `r / 2000`. -/
theorem cover1_out (i : S50000x2.Idx) : ∃ t : Fin cfg1.N, (cfg1.win 6).flush t = true ∧ i ∈ ((cfg1.win 6).blk t).view.set := by
  have hN : cfg1.N = 25 := N_1
  have h0 : (i 0).val < 50000 := (i 0).isLt
  have h1 : (i 1).val < 2 := (i 1).isLt
  obtain ⟨t, ht⟩ : ∃ t : Fin cfg1.N, t.val = (i 0).val / 2000 := ⟨⟨(i 0).val / 2000, by omega⟩, rfl⟩
  obtain ⟨-, -, -, -, -, -, -, -, -, -, -, -, e0, e1⟩ := idx1 t
  refine ⟨t, flush1_6 t, ?_⟩
  rw [mem_blk1_6]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 2 ≤ (i 1).val ∧ (i 1).val < win1_6.index t (1 : Fin 2) * 2 + 2
    rw [e1]; omega

/-- The output array after the region. -/
theorem final1 (c : Dev nD) : (dat1 V c).arrAt 6 cfg1.N
    = layer2 (V c main_v22) (V c main_v33) (V c main_v6) (V c main_v34) (V c main_v7) (V c main_v35) :=
  (dat1 V c).arrAt_eq_of_cover 6 _ (fun t _ => flushed1_eq V c t) cover1_out

end Cert.KernelIdeal.Hand

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.RefSide.lean ====
/-
  The reference, read at one entry: each layer is the row perceptron.

  At node `r` the reference's first layer is the rectified perceptron output of the node's feature row added to its
  neighbour sum (the scatter of the gathered rows, kept as one opaque array here), and its result is the log-softmax, over
  the two classes, of the second perceptron applied to the first layer's row and ITS neighbour sum. Each `dot_general` is a
  sum over the shared axis, each bias a vector copied along the rows, and the library's log-softmax takes the row
  maximum once more against minus infinity, which changes nothing.
-/
import proofs.«122524_j46909632807735_2_alg».proof.Proof.RefRead
import proofs.«122524_j46909632807735_2_alg».proof.Proof.Spec
import proofs.«122524_j46909632807735_2_alg».proof.Proof.LibHostRowForms
import Idealize.ShloMosaic.Lib.ValueIdx
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Gen Cert.ReferenceIdeal.Read Cert.Gin

/-- The floor of the rectifier: the zero word. -/
abbrev zf : EReal := Ideal.ofBits .f32 0x00000000#32
/-- The start of a row maximum: the word of minus infinity. -/
abbrev ninf : EReal := Ideal.ofBits .f32 0xFF800000#32

variable (x0 : (⟨S50000x128, .f32⟩ : BufTy).Contents (Elt Ideal)) (x1 : (⟨S2x600000, .i32⟩ : BufTy).Contents (Elt Ideal))
  (x2 : (⟨S128x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x2, .f32⟩ : BufTy).Contents (Elt Ideal)) (x9 : (⟨S2, .f32⟩ : BufTy).Contents (Elt Ideal))

/-- The neighbour sum of a `[50000, 256]` array `H` along the edges `e`: row `i` is the sum of the rows of `H` at the sources of
    the edges that end at `i` (the host's gather of the source rows, scattered with addition onto the destinations). -/
def agg2 (H : (⟨S50000x256, .f32⟩ : BufTy).Contents (Elt Ideal)) (e : (⟨S2x600000, .i32⟩ : BufTy).Contents (Elt Ideal)) :
    (⟨S50000x256, .f32⟩ : BufTy).Contents (Elt Ideal) :=
  (Host.scatterAdd (F := Ideal) (φ := .f32) scatter_S50000x256_S600000x1_S600000x256_1_0_0_1 (val_main_v34 (F := Ideal)) (val_main_v35 (F := Ideal) e)
    (Host.gather gather_S50000x256_S600000x1_S600000x256_1_0_n_n_0_1_1256 H (val_main_v32 (F := Ideal) e)) : FVec Ideal S50000x256 .f32)

/-- The reference's second neighbour sum is that of its first layer. -/
theorem agg2_eq : val_main_v36 (F := Ideal) x0 x1 x2 x3 x4 x5 = agg2 (val_main_v26 (F := Ideal) x0 x1 x2 x3 x4 x5) x1 := rfl

/-- The first layer's hidden activation at node `r`, unit `k`. -/
theorem hid1 (r : Fin 50000) (k : Fin 256) :
    val_main_v20 (F := Ideal) x0 x1 x2 x3 (ix2 r k)
      = max ((∑ j : Fin 128, (x0 (ix2 r j) + val_main_v13 (F := Ideal) x0 x1 (ix2 r j)) * x2 (ix2 j k)) + x3 (ix1 k)) zf := by
  rw [val_main_v20_apply, val_main_v18_apply, val_main_v15_apply, val_main_v17_apply, val_main_v16_apply, val_main_v19_apply,
    val_main_cst_1_apply]
  have e1 : ∀ j : Fin 128, lidx_main_v15 (ix2 r k) j = ix2 r j := fun j =>
    funext fun a => Fin.ext (by match a with | ⟨0, _⟩ => rfl | ⟨1, _⟩ => rfl)
  have e2 : ∀ j : Fin 128, ridx_main_v15 (ix2 r k) j = ix2 j k := fun j =>
    funext fun a => Fin.ext (by match a with | ⟨0, _⟩ => rfl | ⟨1, _⟩ => rfl)
  have e3 : idx_main_v16 (idx_main_v17 (ix2 r k)) = ix1 k := funext fun a => Fin.ext (by match a with | ⟨0, _⟩ => rfl)
  simp only [e1, e2, e3, val_main_v14_apply]
  rfl

/-- The first layer at node `r`, feature `q`. -/
theorem layer1_apply (r : Fin 50000) (q : Fin 256) :
    val_main_v26 (F := Ideal) x0 x1 x2 x3 x4 x5 (ix2 r q)
      = max (mlpRow (fun j : Fin 128 => x0 (ix2 r j)) (fun j : Fin 128 => val_main_v13 (F := Ideal) x0 x1 (ix2 r j))
          (fun (j : Fin 128) (k : Fin 256) => x2 (ix2 j k)) (fun k : Fin 256 => x3 (ix1 k)) (fun k : Fin 256 => x4 (ix2 k q)) (x5 (ix1 q)) zf) zf := by
  rw [val_main_v26_apply, val_main_v24_apply, val_main_v21_apply, val_main_v23_apply, val_main_v22_apply, val_main_v25_apply,
    val_main_cst_2_apply]
  have e1 : ∀ k : Fin 256, lidx_main_v21 (ix2 r q) k = ix2 r k := fun k =>
    funext fun a => Fin.ext (by match a with | ⟨0, _⟩ => rfl | ⟨1, _⟩ => rfl)
  have e2 : ∀ k : Fin 256, ridx_main_v21 (ix2 r q) k = ix2 k q := fun k =>
    funext fun a => Fin.ext (by match a with | ⟨0, _⟩ => rfl | ⟨1, _⟩ => rfl)
  have e3 : idx_main_v22 (idx_main_v23 (ix2 r q)) = ix1 q := funext fun a => Fin.ext (by match a with | ⟨0, _⟩ => rfl)
  simp only [e1, e2, e3, hid1]
  rfl

/-- The last layer's hidden activation at node `r`, unit `k`. -/
theorem hid2 (r : Fin 50000) (k : Fin 256) :
    val_main_v43 (F := Ideal) x0 x1 x2 x3 x4 x5 x6 x7 (ix2 r k)
      = max ((∑ j : Fin 256, (val_main_v26 (F := Ideal) x0 x1 x2 x3 x4 x5 (ix2 r j) + val_main_v36 (F := Ideal) x0 x1 x2 x3 x4 x5 (ix2 r j)) * x6 (ix2 j k))
          + x7 (ix1 k)) zf := by
  rw [val_main_v43_apply, val_main_v41_apply, val_main_v38_apply, val_main_v40_apply, val_main_v39_apply, val_main_v42_apply,
    val_main_cst_6_apply]
  have e1 : ∀ j : Fin 256, lidx_main_v38 (ix2 r k) j = ix2 r j := fun j =>
    funext fun a => Fin.ext (by match a with | ⟨0, _⟩ => rfl | ⟨1, _⟩ => rfl)
  have e2 : ∀ j : Fin 256, ridx_main_v38 (ix2 r k) j = ix2 j k := fun j =>
    funext fun a => Fin.ext (by match a with | ⟨0, _⟩ => rfl | ⟨1, _⟩ => rfl)
  have e3 : idx_main_v39 (idx_main_v40 (ix2 r k)) = ix1 k := funext fun a => Fin.ext (by match a with | ⟨0, _⟩ => rfl)
  simp only [e1, e2, e3, val_main_v37_apply]
  rfl

/-- The last perceptron's output at node `r`, class `c`, before the normalisation. -/
theorem pre2_apply (r : Fin 50000) (c : Fin 2) :
    val_main_v47 (F := Ideal) x0 x1 x2 x3 x4 x5 x6 x7 x8 x9 (ix2 r c)
      = mlpRow (fun j : Fin 256 => val_main_v26 (F := Ideal) x0 x1 x2 x3 x4 x5 (ix2 r j))
          (fun j : Fin 256 => val_main_v36 (F := Ideal) x0 x1 x2 x3 x4 x5 (ix2 r j))
          (fun (j : Fin 256) (k : Fin 256) => x6 (ix2 j k)) (fun k : Fin 256 => x7 (ix1 k)) (fun k : Fin 256 => x8 (ix2 k c)) (x9 (ix1 c)) zf := by
  rw [val_main_v47_apply, val_main_v44_apply, val_main_v46_apply, val_main_v45_apply]
  have e1 : ∀ k : Fin 256, lidx_main_v44 (ix2 r c) k = ix2 r k := fun k =>
    funext fun a => Fin.ext (by match a with | ⟨0, _⟩ => rfl | ⟨1, _⟩ => rfl)
  have e2 : ∀ k : Fin 256, ridx_main_v44 (ix2 r c) k = ix2 k c := fun k =>
    funext fun a => Fin.ext (by match a with | ⟨0, _⟩ => rfl | ⟨1, _⟩ => rfl)
  have e3 : idx_main_v45 (idx_main_v46 (ix2 r c)) = ix1 c := funext fun a => Fin.ext (by match a with | ⟨0, _⟩ => rfl)
  simp only [e1, e2, e3, hid2]
  rfl

/-- The row maximum the log-softmax subtracts, at node `r`: the fold of `max` over the node's two outputs. -/
theorem rowmax_apply (r : Fin 50000) :
    val_main_call0_v2 (F := Ideal) x0 x1 x2 x3 x4 x5 x6 x7 x8 x9 (ix1 r)
      = Finset.univ.fold max ninf (fun c : Fin 2 => val_main_v47 (F := Ideal) x0 x1 x2 x3 x4 x5 x6 x7 x8 x9 (ix2 r c)) := by
  rw [val_main_call0_v2_apply, val_main_call0_v1_apply, val_main_call0_cst_0_apply]
  unfold val_main_call0_v0 val_main_call0_cst
  rw [Cert.HostRowForms.reduceMax_rows _ reducesTo_S50000x2_S50000_d1 (by decide) h_S_ r]
  exact max_fold_max_self _ _ _

/-- The result at node `r`, class `q`: the log-softmax of the node's two outputs. -/
theorem result_apply (r : Fin 50000) (q : Fin 2) :
    val_main_v48 (F := Ideal) x0 x1 x2 x3 x4 x5 x6 x7 x8 x9 (ix2 r q)
      = lsmRow ninf (fun c : Fin 2 => val_main_v47 (F := Ideal) x0 x1 x2 x3 x4 x5 x6 x7 x8 x9 (ix2 r c)) q := by
  have e4 : ∀ c : Fin 2, idx_main_call0_v3 (idx_main_call0_v4 (ix2 r c)) = ix1 r := fun c =>
    funext fun a => Fin.ext (by match a with | ⟨0, _⟩ => rfl)
  have hsub : ∀ c : Fin 2, val_main_call0_v5 (F := Ideal) x0 x1 x2 x3 x4 x5 x6 x7 x8 x9 (ix2 r c)
      = val_main_v47 (F := Ideal) x0 x1 x2 x3 x4 x5 x6 x7 x8 x9 (ix2 r c)
        - Finset.univ.fold max ninf (fun c : Fin 2 => val_main_v47 (F := Ideal) x0 x1 x2 x3 x4 x5 x6 x7 x8 x9 (ix2 r c)) := fun c => by
    rw [val_main_call0_v5_apply, val_main_call0_v4_apply, val_main_call0_v3_apply, e4, rowmax_apply]
    rfl
  have e8 : idx_main_call0_v8 (idx_main_call0_v10 (ix2 r q)) = ix1 r := funext fun a => Fin.ext (by match a with | ⟨0, _⟩ => rfl)
  have e7 : ∀ k : Fin 2, idx_main_call0_v7 (ix1 r) k = ix2 r k := fun k =>
    funext fun a => Fin.ext (by match a with | ⟨0, _⟩ => rfl | ⟨1, _⟩ => rfl)
  rw [val_main_v48_apply, hsub, val_main_call0_v10_apply, val_main_call0_v9_apply, val_main_call0_v8_apply, e8,
    val_main_call0_v7_apply, val_main_call0_cst_1_apply]
  simp only [e7, val_main_call0_v6_apply, hsub]
  unfold lsmRow
  simp only [Ideal.subf_def, Ideal.hostUnary_log_def, Ideal.hostUnary_exp_def, Ideal.ofBits_def, Ideal.ofBits_zero_f32, zero_add]

end Cert.ReferenceIdeal.Hand

end
-- ==== Proof.HostChain.lean ====
/-
  What each region finds in its arrays, as terms of the launch memory.

  Before the first region the host casts the features and the first pair of weights to the matrix unit's format (the
  identity on extended reals), lays each bias out as one row, and computes the neighbour sums: the source column of the
  edge list, negative entries wrapped by the node count, gathers rows of the features, and the gathered rows are added into
  the rows the destination column names. Between the regions it computes the same neighbour sums of the first region's
  output and lays out the second pair of biases. The index preparation, the gather and the scatter are the reference's own
  operations on the same operands, so each neighbour sum IS the reference's term.
-/
import proofs.«122524_j46909632807735_2_alg».proof.Proof.Gen.KernelIdeal.Frame
import proofs.«122524_j46909632807735_2_alg».proof.Proof.RefSide
import Idealize.ShloMosaic.Lib.StableHlo.Run
import Idealize.ShloMosaic.PureOps.Ideal

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Before the first region -/

theorem W1_v1 : (W1 m ρ c (Proc.devRef .tc main_v1) : S600000.Idx → BitVec 32)
    = Cert.ReferenceIdeal.Read.val_main_v1 (F := Ideal) (m ((c.tc : Thread nD τ).loc main_arg1)) := by
  show StableHlo.after hostOps0 (W0 m ρ c) (Proc.devRef .tc main_v1) = _
  after_results
  rfl

theorem W1_v3 : (W1 m ρ c (Proc.devRef .tc main_v3) : S600000.Idx → BitVec 32)
    = Cert.ReferenceIdeal.Read.val_main_v3 (F := Ideal) (m ((c.tc : Thread nD τ).loc main_arg1)) := by
  show StableHlo.after hostOps0 (W0 m ρ c) (Proc.devRef .tc main_v3) = _
  after_results
  rfl

theorem V1_v8 : (V1 m ρ c main_v8 : S50000x128.Idx → EReal) = m ((c.tc : Thread nD τ).loc main_arg0) := by
  show StableHlo.after hostOps0 (W0 m ρ c) (Proc.devRef .tc main_v8) = _
  after_results
  rfl

theorem V1_v4 : (V1 m ρ c main_v4 : S128x256.Idx → EReal) = m ((c.tc : Thread nD τ).loc main_arg2) := by
  show StableHlo.after hostOps0 (W0 m ρ c) (Proc.devRef .tc main_v4) = _
  after_results
  rfl

theorem V1_v5 : (V1 m ρ c main_v5 : S256x256.Idx → EReal) = m ((c.tc : Thread nD τ).loc main_arg4) := by
  show StableHlo.after hostOps0 (W0 m ρ c) (Proc.devRef .tc main_v5) = _
  after_results
  rfl

theorem V1_v20 : (V1 m ρ c main_v20 : S1x256.Idx → EReal)
    = shapeCast S1x256 (m ((c.tc : Thread nD τ).loc main_arg3) : S256.Idx → EReal) shapeCasts_S256_S1x256 := by
  show StableHlo.after hostOps0 (W0 m ρ c) (Proc.devRef .tc main_v20) = _
  after_results
  rfl

theorem V1_v21 : (V1 m ρ c main_v21 : S1x256.Idx → EReal)
    = shapeCast S1x256 (m ((c.tc : Thread nD τ).loc main_arg5) : S256.Idx → EReal) shapeCasts_S256_S1x256 := by
  show StableHlo.after hostOps0 (W0 m ρ c) (Proc.devRef .tc main_v21) = _
  after_results
  rfl

/-- The first neighbour sum is the reference's. -/
theorem V1_v19 : (V1 m ρ c main_v19 : S50000x128.Idx → EReal)
    = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v19) = _
  after_results_simp
  rfl

/-! ## Between the regions -/

/-- The first region's output reaches the second region as the first left it. -/
theorem V3_v22 : V3 m ρ c main_v22 = W2 m ρ c (Proc.devRef .tc main_v22) := by
  show StableHlo.after hostOps1 (W2 m ρ c) (Proc.devRef .tc main_v22) = _
  after_results

theorem V3_v6 : (V3 m ρ c main_v6 : S256x256.Idx → EReal) = m ((c.tc : Thread nD τ).loc main_arg6) := by
  show StableHlo.after hostOps1 (W2 m ρ c) (Proc.devRef .tc main_v6) = _
  after_results
  rw [W2_of_ne m ρ c main_v6 (by decide)]
  show StableHlo.after hostOps0 (W0 m ρ c) (Proc.devRef .tc main_v6) = _
  after_results
  rfl

theorem V3_v7 : (V3 m ρ c main_v7 : S256x2.Idx → EReal) = m ((c.tc : Thread nD τ).loc main_arg8) := by
  show StableHlo.after hostOps1 (W2 m ρ c) (Proc.devRef .tc main_v7) = _
  after_results
  rw [W2_of_ne m ρ c main_v7 (by decide)]
  show StableHlo.after hostOps0 (W0 m ρ c) (Proc.devRef .tc main_v7) = _
  after_results
  rfl

theorem V3_v34 : (V3 m ρ c main_v34 : S1x256.Idx → EReal)
    = shapeCast S1x256 (m ((c.tc : Thread nD τ).loc main_arg7) : S256.Idx → EReal) shapeCasts_S256_S1x256 := by
  show StableHlo.after hostOps1 (W2 m ρ c) (Proc.devRef .tc main_v34) = _
  after_results
  rw [W2_of_ne m ρ c main_arg7 (by decide)]
  refine congrArg (fun v => shapeCast S1x256 v shapeCasts_S256_S1x256) ?_
  show StableHlo.after hostOps0 (W0 m ρ c) (Proc.devRef .tc main_arg7) = _
  after_results

theorem V3_v35 : (V3 m ρ c main_v35 : S1x2.Idx → EReal)
    = shapeCast S1x2 (m ((c.tc : Thread nD τ).loc main_arg9) : S2.Idx → EReal) shapeCasts_S2_S1x2 := by
  show StableHlo.after hostOps1 (W2 m ρ c) (Proc.devRef .tc main_v35) = _
  after_results
  rw [W2_of_ne m ρ c main_arg9 (by decide)]
  refine congrArg (fun v => shapeCast S1x2 v shapeCasts_S2_S1x2) ?_
  show StableHlo.after hostOps0 (W0 m ρ c) (Proc.devRef .tc main_arg9) = _
  after_results

/-- The second neighbour sum is the reference's, of the first region's output. -/
theorem V3_v33 : (V3 m ρ c main_v33 : S50000x256.Idx → EReal)
    = Cert.ReferenceIdeal.Hand.agg2 (W2 m ρ c (Proc.devRef .tc main_v22) : S50000x256.Idx → EReal)
        (m ((c.tc : Thread nD τ).loc main_arg1)) := by
  show StableHlo.after hostOps1 (W2 m ρ c) (Proc.devRef .tc main_v33) = _
  after_results_simp
  rw [W2_of_ne m ρ c main_v1 (by decide), W2_of_ne m ρ c main_v3 (by decide), W1_v1, W1_v3]
  rfl

end Cert.KernelIdeal.Hand

end
-- ==== Proof.Bridge.lean ====
/-
  The two programs compute one function.

  The first region's output array is the rectified perceptron of the feature rows and their neighbour sums, which at
  every node and feature is the reference's first layer: the same rows, the same neighbour sum, the same weights, the
  biases read off their one-row layout. The second region's output array is the log-softmax of the second perceptron of
  that array's rows and ITS neighbour sums, which at every node and class is the reference's result. No law beyond the
  definitions is used: both sides add and multiply the same extended reals in the same order.
-/
import proofs.«122524_j46909632807735_2_alg».proof.Proof.Arrays0
import proofs.«122524_j46909632807735_2_alg».proof.Proof.Arrays1
import proofs.«122524_j46909632807735_2_alg».proof.Proof.HostChain
import proofs.«122524_j46909632807735_2_alg».proof.Proof.RefSide
import Idealize.ShloMosaic.Lib.ValueLayout

noncomputable section

open scoped BigOperators

namespace Cert.KernelIdeal.Hand

open Idealize.ShloMosaic Idealize.ShloMosaic.TcCoe Idealize.SL.Sem Idealize.ShloMosaic.ValueIdx
open Cert.KernelIdeal Cert.KernelIdeal.Gen Cert.Gin

variable (m : (ℓ : Loc nD τ sig) → Buf (Elt Ideal) ℓ) (ρ : Dev nD → PrngReg) (c : Dev nD)

/-- After the first region its output array holds the reference's first layer of the launch arguments. -/
theorem region0_value : (W2 m ρ c (Proc.devRef .tc main_v22) : S50000x256.Idx → EReal)
    = Cert.ReferenceIdeal.Read.val_main_v26 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) := by
  refine (show W2 m ρ c (Proc.devRef .tc main_v22) = (dat0 (V1 m ρ) c).arrAt 6 cfg0.N from W2_arr m ρ c 6).trans ?_
  refine (final0 (V1 m ρ) c).trans ?_
  rw [V1_v8, V1_v19, V1_v4, V1_v20, V1_v5, V1_v21]
  funext i
  obtain ⟨r, q, rfl⟩ : ∃ (r : Fin 50000) (q : Fin 256), i = (ix2 r q : S50000x256.Idx) := ⟨i 0, i 1, eq_ix2 (n0 := 50000) (n1 := 256) i⟩
  rw [layer1_ix2, Cert.ReferenceIdeal.Hand.layer1_apply]
  unfold layer1At
  simp only [shapeCast_a_1a_apply]
  try rfl

/-- After the second region its output array holds the reference's result of the launch arguments. -/
theorem result_value : (W4 m ρ c (Proc.devRef .tc main_v36) : S50000x2.Idx → EReal)
    = Cert.ReferenceIdeal.Read.val_main_v48 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  refine (show W4 m ρ c (Proc.devRef .tc main_v36) = (dat1 (V3 m ρ) c).arrAt 6 cfg1.N from W4_arr m ρ c 6).trans ?_
  refine (final1 (V3 m ρ) c).trans ?_
  rw [V3_v22, V3_v33, V3_v6, V3_v34, V3_v7, V3_v35, region0_value]
  funext i
  obtain ⟨r, q, rfl⟩ : ∃ (r : Fin 50000) (q : Fin 2), i = (ix2 r q : S50000x2.Idx) := ⟨i 0, i 1, eq_ix2 (n0 := 50000) (n1 := 2) i⟩
  rw [layer2_ix2, Cert.ReferenceIdeal.Hand.result_apply]
  unfold layer2At
  refine congrArg (fun f => lsmRow ninf f q) (funext fun c' => ?_)
  rw [Cert.ReferenceIdeal.Hand.pre2_apply, Cert.ReferenceIdeal.Hand.agg2_eq]
  simp only [shapeCast_a_1a_apply]
  try rfl

end Cert.KernelIdeal.Hand

end
-- ==== Proof.lean ====
/-
  A two-layer graph isomorphism network: the kernel program against its reference.

  The kernel program runs each layer's perceptron in a region over blocks of 2000 nodes and leaves the neighbour sums
  (a gather of source rows scattered with addition onto destination rows) to the host; the reference is the same network
  written with whole-array operations. Over the extended reals, where the kernel's changes of float format are the
  identity, the two results are the same function of the arguments, node by node and class by class: the result array
  of the kernel program's run is read off the second region's write-backs, the reference's off its operations, and the
  two terms meet at the row perceptron and the row log-softmax. The three frames are the runs with the results dropped;
  the idealization rewrote nothing.
-/
import proofs.«122524_j46909632807735_2_alg».proof.Defs
import proofs.«122524_j46909632807735_2_alg».proof.Proof.Gen.Kernel
import proofs.«122524_j46909632807735_2_alg».proof.Proof.Gen.Kernel.Skeleton
import proofs.«122524_j46909632807735_2_alg».proof.Proof.Gen.Kernel.Launch
import proofs.«122524_j46909632807735_2_alg».proof.Proof.Gen.Kernel.Points
import proofs.«122524_j46909632807735_2_alg».proof.Proof.Gen.Kernel.Frame
import proofs.«122524_j46909632807735_2_alg».proof.Proof.Gen.KernelIdeal
import proofs.«122524_j46909632807735_2_alg».proof.Proof.Gen.KernelIdeal.Skeleton
import proofs.«122524_j46909632807735_2_alg».proof.Proof.Gen.KernelIdeal.Launch
import proofs.«122524_j46909632807735_2_alg».proof.Proof.Gen.KernelIdeal.Points
import proofs.«122524_j46909632807735_2_alg».proof.Proof.Gen.KernelIdeal.Frame
import proofs.«122524_j46909632807735_2_alg».proof.Proof.Gen.ReferenceIdeal
import proofs.«122524_j46909632807735_2_alg».proof.Proof.Gen.Pre_finite_inputs
import proofs.«122524_j46909632807735_2_alg».proof.Proof.KernelRun
import proofs.«122524_j46909632807735_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the reference's result term of those arguments:
    the kernel program's result array by the regions' write-backs, the reference's by its operations. -/
theorem algebraic : Cert.algebraic_KernelIdeal_ReferenceIdeal := by
  intro m ρ m' ρ' _ hagree
  refine ⟨fun c => Cert.KernelIdeal.Gen.W4 m ρ c (Proc.devRef .tc Cert.KernelIdeal.main_v36),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v48_eq, h0, h1, h2, h3, h4, h5, h6, h7, h8, h9]
  exact (Cert.KernelIdeal.Hand.result_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
